-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4096x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x512 : Shape := ⟨4, ![8, 64, 128, 512]⟩
abbrev S512x512 : Shape := ⟨2, ![512, 512]⟩
abbrev S512 : Shape := ⟨1, ![512]⟩
abbrev S_ : Shape := ⟨0, ![]⟩

class Facts : Prop where
  bcast_S_S8x64x128x512 : S_.BroadcastsInDim S8x64x128x512 (![] : Fin 0 → Fin S8x64x128x512.rank)
  reducesTo_S8x64x128x512_S_d0_1_2_3 : S8x64x128x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x64x128x512 .f32) (main_arg1 : FVec F S512x512 .f32) (main_arg2 : FVec F S512 .f32) : IVec S_ 1 :=
  let main_v0 : FVec F S8x64x128x512 .f32 := Host.absf main_arg0
  let main_cst : FVec F S_ .f32 := constant S_ .f32 0x7F800000#32
  let main_v1 : FVec F S8x64x128x512 .f32 := broadcastInDim S8x64x128x512 ![] bcast_S_S8x64x128x512 main_cst
  let main_v2 : IVec S8x64x128x512 1 := cmpf .olt main_v0 main_v1
  let main_c : IVec S_ 1 := constantI S_ 1 1#1
  let main_v3 : IVec S_ 1 := (fun x v => Host.reduce IntOp.andi x v reducesTo_S8x64x128x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x64x128x512 : Shape := ⟨4, ![8, 64, 128, 512]⟩
abbrev S512x512 : Shape := ⟨2, ![512, 512]⟩
abbrev S512 : Shape := ⟨1, ![512]⟩
abbrev S65536x512 : Shape := ⟨2, ![65536, 512]⟩
abbrev S1x512 : Shape := ⟨2, ![1, 512]⟩
abbrev S4096x512 : Shape := ⟨2, ![4096, 512]⟩

abbrev nBuf : Space → Nat
  | .hbm => 11
  | .vmem => 7
  | .smem => 0
  | _ => 0

abbrev bufTy : (tb : Table) → Fin (tcTables nBuf tb) → BufTy
  | .hbm, ⟨0, _⟩ => ⟨S8x64x128x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S1x512, .f32⟩
  | .hbm, ⟨5, _⟩ => ⟨S512x512, .bf16⟩
  | .hbm, ⟨6, _⟩ => ⟨S512x512, .f32⟩
  | .hbm, ⟨7, _⟩ => ⟨S512x512, .f32⟩
  | .hbm, ⟨8, _⟩ => ⟨S512x512, .bf16⟩
  | .hbm, ⟨9, _⟩ => ⟨S65536x512, .f32⟩
  | .hbm, ⟨10, _⟩ => ⟨S8x64x128x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S8x64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x128x512_S65536x512 : S8x64x128x512.ShapeCasts S65536x512
  shapeCasts_S512_S1x512 : S512.ShapeCasts S1x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S65536x512_S8x64x128x512 : S65536x512.ShapeCasts S8x64x128x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S65536x512.size a
  hwx0_4 : ∀ i : grid0.Coords, EltTy.bits .f32 = 32 ∨ (Rect.block (s := S65536x512) S4096x512.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x128x512 : Shape := ⟨4, ![8, 64, 128, 512]⟩
abbrev S512x512 : Shape := ⟨2, ![512, 512]⟩
abbrev S512 : Shape := ⟨1, ![512]⟩
abbrev S1x1x1x512 : Shape := ⟨4, ![1, 1, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S8x64x128x512, .f32⟩
  | .hbm, ⟨1, _⟩ => ⟨S512x512, .f32⟩
  | .hbm, ⟨2, _⟩ => ⟨S512, .f32⟩
  | .hbm, ⟨3, _⟩ => ⟨S8x64x128x512, .f32⟩
  | .hbm, ⟨4, _⟩ => ⟨S1x1x1x512, .f32⟩
  | .hbm, ⟨5, _⟩ => ⟨S8x64x128x512, .f32⟩
  | .hbm, ⟨6, _⟩ => ⟨S8x64x128x512, .f32⟩
  | .hbm, ⟨7, _⟩ => ⟨S8x64x128x512, .f32⟩
  | _, _ => ⟨S8x64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x64x128x512_0_1_2_3 : S1x1x1x512.BroadcastsInDim S8x64x128x512 (![0, 1, 2, 3] : Fin 4 → Fin S8x64x128x512.rank)
  dot_S8x64x128x512_S512x512_S8x64x128x512_3_0_012_1_n_n_wf : DotDims.WF S8x64x128x512 S512x512 S8x64x128x512 [3] [0] [0, 1, 2] [1] [] []

variable [Facts₀]

def dot_S8x64x128x512_S512x512_S8x64x128x512_3_0_012_1_n_n : DotDims S8x64x128x512 S512x512 S8x64x128x512 where
  lhsContracting := [3]
  rhsContracting := [0]
  lhsNonContracting := [0, 1, 2]
  rhsNonContracting := [1]
  lhsBatch := []
  rhsBatch := []
  wf := dot_S8x64x128x512_S512x512_S8x64x128x512_3_0_012_1_n_n_wf

class Facts : Prop extends Facts₀ where

variable [Facts]
-- ==== Proof.Finite.lean ====
import proofs.«154150_j71356586656491_2_alg».proof.Pre_finite_inputs
import proofs.«154150_j71356586656491_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

/- From the precondition to real numbers. The precondition says, array by array, that every entry's absolute value is
   strictly below +∞, all entries joined by "and". On the extended reals |x| = max x (−x) is +∞ at both infinities, so an
   entry satisfying it is neither: it is a real number. Only X and W are needed downstream (the bias enters by one
   addition, which needs no finiteness). -/

noncomputable section

namespace Cert.FiniteInputs

open Idealize.ShloMosaic Cert.Pre_finite_inputs

/-- A rank-0 array has one index. -/
instance : Subsingleton S_.Idx := ⟨fun a b => funext fun d => d.elim0⟩

/-- The word 0x7F800000 (exponent all ones, fraction zero, sign clear) denotes +∞. -/
theorem top_pattern : Ideal.ofBits .f32 0x7F800000#32 = (⊤ : EReal) := by
  simp [Ideal.ofBits, Ideal.ieee]

/-- An extended real whose absolute value is strictly below +∞ is a real number: at ⊥ and at ⊤ the absolute value is ⊤,
    which is not below itself. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_pattern] at h
  induction x using EReal.rec with
  | bot => exact absurd h (by decide)
  | top => exact absurd h (by decide)
  | coe r => exact ⟨r, rfl⟩

/-- The precondition at its one index is a conjunction of three "all entries" tests; the first two give that every
    entry of X and every entry of W is a real number. -/
theorem reals_of_pre (X : FVec Ideal S8x64x128x512 .f32) (W : FVec Ideal S512x512 .f32) (b : FVec Ideal S512 .f32)
    (h : fn (F := Ideal) X W b = fun _ => 1#1) :
    (∀ i, ∃ r : ℝ, X i = (r : EReal)) ∧ (∀ i, ∃ r : ℝ, W i = (r : EReal)) := by
  have h0 := congrFun h ValueIdx.ix0
  dsimp only [fn] at h0
  obtain ⟨h12, _⟩ := IntOp.andi_eq_one.mp h0
  obtain ⟨hX, hW⟩ := IntOp.andi_eq_one.mp h12
  refine ⟨fun i => real_of_abs_lt _ ?_, fun i => real_of_abs_lt _ ?_⟩
  · exact Host.reduce_andi_all _ _ _ _ _ hX i
  · exact Host.reduce_andi_all _ _ _ _ _ hW i

end Cert.FiniteInputs

end
-- ==== Proof.Dense.lean ====
import Idealize.ShloMosaic.PureOps.Ideal
import Idealize.ShloMosaic.PureOps.Ideal.Laws
import Idealize.ShloMosaic.Lib.ValueIdx

/- The specification and the one law. `dense` is the layer itself: at (i₀, i₁, i₂, o) the tanh of Σₖ X (i₀, i₁, i₂, k) · W (k, o)
   plus b (o). `splitDense` is the arrangement the kernel computes on flattened rows: the same sum plus two correction
   sums, Σₖ (X − X) · W_hi and Σₖ X · W_lo. The law: on the extended reals x − x = 0 exactly when x is a real number
   (⊤ − ⊤ is not 0), and 0 · y = y · 0 = 0 for every y, so with real X and W, and W_lo = W − W, both corrections are sums
   of zeros and drop out. No distributivity is used. -/

noncomputable section

namespace Cert.Dense

open Idealize.ShloMosaic Idealize.ShloMosaic.ValueIdx

/-- The dense layer with bias and tanh: the last axis of X contracted with the first of W. -/
def dense (X : (⟨4, ![8, 64, 128, 512]⟩ : Shape).Idx → EReal) (W : (⟨2, ![512, 512]⟩ : Shape).Idx → EReal)
    (b : (⟨1, ![512]⟩ : Shape).Idx → EReal) : (⟨4, ![8, 64, 128, 512]⟩ : Shape).Idx → EReal :=
  fun i => Ideal.tanh ((∑ k : Fin 512, X (ix4 (i 0) (i 1) (i 2) k) * W (ix2 k (i 3))) + b (ix1 (i 3)))

/-- The split arrangement on flattened rows: main product, left-residual product, right-residual product, bias row. -/
def splitDense (X : (⟨2, ![65536, 512]⟩ : Shape).Idx → EReal) (Wh Wl : (⟨2, ![512, 512]⟩ : Shape).Idx → EReal)
    (b : (⟨2, ![1, 512]⟩ : Shape).Idx → EReal) : (⟨2, ![65536, 512]⟩ : Shape).Idx → EReal :=
  fun j => Ideal.tanh (((∑ k : Fin 512, X (ix2 (j 0) k) * Wh (ix2 k (j 1)))
      + (∑ k : Fin 512, (X (ix2 (j 0) k) - X (ix2 (j 0) k)) * Wh (ix2 k (j 1)))
      + ∑ k : Fin 512, X (ix2 (j 0) k) * Wl (ix2 k (j 1))) + b (ix2 (0 : Fin 1) (j 1)))

/-- A real number minus itself is zero, as extended reals. -/
theorem sub_self_of_real {x : EReal} (h : ∃ r : ℝ, x = (r : EReal)) : x - x = 0 := by
  obtain ⟨r, rfl⟩ := h
  rw [← EReal.coe_sub, sub_self, EReal.coe_zero]

/-- With real X and W and the low part W − W, the split arrangement is the plain one: each term of the two correction
    sums is 0 · w or x · 0. -/
theorem splitDense_of_real (X : (⟨2, ![65536, 512]⟩ : Shape).Idx → EReal) (W : (⟨2, ![512, 512]⟩ : Shape).Idx → EReal)
    (b : (⟨2, ![1, 512]⟩ : Shape).Idx → EReal) (hX : ∀ i, ∃ r : ℝ, X i = (r : EReal)) (hW : ∀ i, ∃ r : ℝ, W i = (r : EReal))
    (j : (⟨2, ![65536, 512]⟩ : Shape).Idx) :
    splitDense X W (fun i => W i - W i) b j
      = Ideal.tanh ((∑ k : Fin 512, X (ix2 (j 0) k) * W (ix2 k (j 1))) + b (ix2 (0 : Fin 1) (j 1))) := by
  unfold splitDense
  have e1 : ∀ k : Fin 512, (X (ix2 (j 0) k) - X (ix2 (j 0) k)) * W (ix2 k (j 1)) = 0 := fun k => by
    rw [sub_self_of_real (hX _), zero_mul]
  have e2 : ∀ k : Fin 512, X (ix2 (j 0) k) * (W (ix2 k (j 1)) - W (ix2 k (j 1))) = 0 := fun k => by
    rw [sub_self_of_real (hW _), mul_zero]
  simp only [e1, e2, Finset.sum_const_zero, add_zero]

end Cert.Dense

end
-- ==== Proof.Payload.lean ====
import proofs.«154150_j71356586656491_2_alg».proof.Proof.Gen.KernelIdeal
import proofs.«154150_j71356586656491_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/- One entry of what the kernel body stores, on the extended reals. The body takes a [4096, 512] block x of rows, two
   [512, 512] weight blocks u and v and a [1, 512] bias row β, and stores tanh (x̃·u + (x − x̃)·u + x̃·v + β), where x̃ is
   x narrowed to bf16 (the identity here) and the three products are matrix products into zero accumulators. At row p
   and column q each product is a plain sum over the 512 contraction positions, and the bias row is read at column q. -/

noncomputable section

namespace Cert.KernelIdeal.Payload

open Idealize.ShloMosaic Idealize.ShloMosaic.ValueIdx Cert.KernelIdeal Cert.KernelIdeal.Gen

/-- The left operand's index for output (row, column) and contraction position κ keeps the output's row. -/
theorem lhs_row (j : S4096x512.Idx) (κ : dot_S4096x512_S512x512_S4096x512_1_0_0_1_n_n.contr.Idx) :
    (dot_S4096x512_S512x512_S4096x512_1_0_0_1_n_n.lhsIdx j κ 0).val = (j 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl

/-- The right operand's index keeps the output's column. -/
theorem rhs_col (j : S4096x512.Idx) (κ : dot_S4096x512_S512x512_S4096x512_1_0_0_1_n_n.contr.Idx) :
    (dot_S4096x512_S512x512_S4096x512_1_0_0_1_n_n.rhsIdx j κ 1).val = (j 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

/-- A [4096, 512] × [512, 512] product into the zero accumulator, at (p, q): the sum over k of l (p, k) · r (k, q).
    The contraction index has one axis of extent 512 and is re-indexed by Fin 512; the operand indices are then
    (p, k) and (k, q), coordinate by coordinate. -/
theorem matmul_entry (l : FVec Ideal S4096x512 .bf16) (r : FVec Ideal S512x512 .bf16) (p : Fin 4096) (q : Fin 512) :
    matmul dot_S4096x512_S512x512_S4096x512_1_0_0_1_n_n none l r (constant S4096x512 .f32 0x00000000#32) (ix2 p q)
      = ∑ k : Fin 512, l (ix2 p k) * r (ix2 k q) := by
  simp only [matmul]
  rw [Ideal.matmul_constant_zero_apply,
    ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 p q)
      ((contrEquiv1 dot_S4096x512_S512x512_S4096x512_1_0_0_1_n_n 512 rfl rfl).symm k) = ix2 p k :=
    funext fun a => Fin.ext (by
      match a with
      | ⟨0, _⟩ => exact lhs_row _ _
      | ⟨1, _⟩ => exact (dot_S4096x512_S512x512_S4096x512_1_0_0_1_n_n.lhsIdx_val_of_single rfl _ _).trans hk)
  have er : dot_S4096x512_S512x512_S4096x512_1_0_0_1_n_n.rhsIdx (ix2 p q)
      ((contrEquiv1 dot_S4096x512_S512x512_S4096x512_1_0_0_1_n_n 512 rfl rfl).symm k) = ix2 k q :=
    funext fun a => Fin.ext (by
      match a with
      | ⟨0, _⟩ => exact (dot_S4096x512_S512x512_S4096x512_1_0_0_1_n_n.rhsIdx_val_of_single rfl _ _).trans hk
      | ⟨1, _⟩ => exact rhs_col _ _)
  rw [el, er]

/-- The stored value at (p, q): tanh of the main product, plus the product of the left residual x − x with u, plus the
    product of x with the right residual v, plus the bias at column q. -/
theorem pay_entry (x0 : Vec Ideal S4096x512 .f32) (x1 x2 : Vec Ideal S512x512 .bf16) (x3 : Vec Ideal S1x512 .f32)
    (p : Fin 4096) (q : Fin 512) :
    k0_pay1 (F := Ideal) x0 x1 x2 x3 (ix2 p q)
      = Ideal.tanh (((∑ k : Fin 512, x0 (ix2 p k) * x1 (ix2 k q))
          + (∑ k : Fin 512, (x0 (ix2 p k) - x0 (ix2 p k)) * x1 (ix2 k q))
          + ∑ k : Fin 512, x0 (ix2 p k) * x2 (ix2 k q)) + x3 (ix2 (0 : Fin 1) q)) := by
  unfold k0_pay1
  simp only [shapeCast_self]
  show Ideal.tanh (matmul (F := Ideal) dot_S4096x512_S512x512_S4096x512_1_0_0_1_n_n none (truncf FTy.bf16 x0 bitsLt_bf16_f32) x1 (constant S4096x512 FTy.f32 0#32) (ix2 p q)
      + matmul (F := Ideal) dot_S4096x512_S512x512_S4096x512_1_0_0_1_n_n none (truncf FTy.bf16 (subf x0 x0) bitsLt_bf16_f32) x1 (constant S4096x512 FTy.f32 0#32) (ix2 p q)
      + matmul (F := Ideal) dot_S4096x512_S512x512_S4096x512_1_0_0_1_n_n none (truncf FTy.bf16 x0 bitsLt_bf16_f32) x2 (constant S4096x512 FTy.f32 0#32) (ix2 p q)
      + broadcastTo S4096x512 x3 broadcasts_S1x512_S4096x512 (ix2 p q)) = _
  rw [matmul_entry, matmul_entry, matmul_entry, broadcastTo_1b_ab_apply]
  rfl

end Cert.KernelIdeal.Payload

end
-- ==== Proof.Blocks.lean ====
import proofs.«154150_j71356586656491_2_alg».proof.Proof.Gen.KernelIdeal.Frame
import proofs.«154150_j71356586656491_2_alg».proof.Proof.Payload
import proofs.«154150_j71356586656491_2_alg».proof.Proof.Dense
import Idealize.ShloMosaic.PureOps.Ideal.Laws
import Idealize.ShloMosaic.Lib.ValueIdx
import Idealize.ShloMosaic.Lib.Pipeline.Value

/- From blocks to the whole result array. Grid point t (of 16) reads rows 4096·t … 4096·t + 4095 of the flattened rows
   array, the two weight parts and the bias row whole, and writes back rows 4096·t … of the result. What it writes is the
   block of ONE function of the four input arrays (the split arrangement), because row 4096·t + p of the rows array is row
   p of the point's block and the other three blocks are their whole arrays. Every row r of the result lies in the block of
   point r / 4096, so after the last write-back the result array is that function everywhere. -/
set_option maxRecDepth 16384

noncomputable section

namespace Cert.KernelIdeal.Blocks

open Idealize.ShloMosaic Idealize.ShloMosaic.TcCoe Idealize.SL.Sem Idealize.ShloMosaic.ValueIdx Cert.KernelIdeal Cert.KernelIdeal.Gen
open Idealize.ShloMosaic.Pipeline (Dat)
open Cert.Dense (splitDense)

/-- The body's stored value at a block position y is the split arrangement at an array position i, as soon as the blocks
    agree with the arrays along row y₀ / i₀ and column y₁ / i₁. Stated over plain vectors and functions; instantiated
    below at a point's blocks. -/
theorem pay_eq_splitDense (x0 : Vec Ideal S4096x512 .f32) (x1 x2 : Vec Ideal S512x512 .bf16) (x3 : Vec Ideal S1x512 .f32)
    (X : S65536x512.Idx → EReal) (Wh Wl : S512x512.Idx → EReal) (b : S1x512.Idx → EReal)
    (y : S4096x512.Idx) (i : S65536x512.Idx)
    (hx : ∀ k : Fin 512, x0 (ix2 (y 0) k) = X (ix2 (i 0) k))
    (h1 : ∀ k : Fin 512, x1 (ix2 k (y 1)) = Wh (ix2 k (i 1)))
    (h2 : ∀ k : Fin 512, x2 (ix2 k (y 1)) = Wl (ix2 k (i 1)))
    (h3 : x3 (ix2 (0 : Fin 1) (y 1)) = b (ix2 (0 : Fin 1) (i 1))) :
    k0_pay1 (F := Ideal) x0 x1 x2 x3 y = splitDense X Wh Wl b i := by
  obtain ⟨p, q, rfl⟩ : ∃ (p : Fin 4096) (q : Fin 512), y = ix2 p q := ⟨y 0, y 1, eq_ix2 y⟩
  rw [Payload.pay_entry]
  unfold splitDense
  have hx' : ∀ k : Fin 512, x0 (ix2 p k) = X (ix2 (i 0) k) := hx
  have h1' : ∀ k : Fin 512, x1 (ix2 k q) = Wh (ix2 k (i 1)) := h1
  have h2' : ∀ k : Fin 512, x2 (ix2 k q) = Wl (ix2 k (i 1)) := h2
  have h3' : x3 (ix2 (0 : Fin 1) q) = b (ix2 (0 : Fin 1) (i 1)) := h3
  simp only [hx', h1', h2', h3']

variable (m : (ℓ : Loc nD τ sig) → Buf (Elt Ideal) ℓ)

/-- The zero offset, as a function. -/
theorem hz : (![0, 0] : Fin 2 → Nat) = fun _ => 0 := funext fun a => by fin_cases a <;> rfl

/-- The block indices of the five windows at every point: the rows and the result move with the point along axis 0,
    everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the split arrangement of the four input arrays: position (p, q) of the block
    is position (4096·t + p, q) of the array, the rows block reads the rows array there, and the weight and bias blocks
    read their arrays at the same positions. -/
theorem flushed_eq (c : Dev nD) (t : Fin cfg0.N) :
    (dats m 0 c).flushed 4 t = ((cfg0.win 4).blk t).view.read (Elt Ideal)
      (splitDense (V m c main_v0) (V m c main_v2) (V m c main_v5) (V m c main_v1)) := by
  show (cfg0.win 4).cut (grid0.coords t) ((dats m 0 c).after 4 t) = _
  rw [after0_4]
  unfold out0_4
  rw [View.canon_unit_zero hz]
  simp only [View.ld_unit_zero (S := S4096x512) hz, View.ld_unit_zero (S := S512x512) hz, View.ld_unit_zero (S := S1x512) hz]
  obtain ⟨e00, e01, e10, e11, e20, e21, e30, e31, e40, e41⟩ := idx_facts t
  funext y
  show k0_pay1 (F := Ideal) (iblk m c 0 t) (iblk m c 1 t) (iblk m c 2 t) (iblk m c 3 t) y
    = splitDense (V m c main_v0) (V m c main_v2) (V m c main_v5) (V m c main_v1) (((cfg0.win 4).blk t).view.emb y)
  refine pay_eq_splitDense _ _ _ _ _ _ _ _ y _ (fun k => ?_) (fun k => ?_) (fun k => ?_) ?_
  · show V m c main_v0 (((cfg0.win 0).blk t).view.emb (ix2 (y 0) k)) = V m c main_v0 (ix2 ((((cfg0.win 4).blk t).view.emb y) 0) k)
    refine congrArg (V m c main_v0) (funext fun a => Fin.ext ?_)
    match a with
    | ⟨0, _⟩ => show win0_0.index t (0 : Fin 2) * 4096 + 1 * (y 0).val = win0_4.index t (0 : Fin 2) * 4096 + 1 * (y 0).val; omega
    | ⟨1, _⟩ => show win0_0.index t (1 : Fin 2) * 512 + 1 * k.val = k.val; omega
  · show V m c main_v2 (((cfg0.win 1).blk t).view.emb (ix2 k (y 1))) = V m c main_v2 (ix2 k ((((cfg0.win 4).blk t).view.emb y) 1))
    refine congrArg (V m c main_v2) (funext fun a => Fin.ext ?_)
    match a with
    | ⟨0, _⟩ => show win0_1.index t (0 : Fin 2) * 512 + 1 * k.val = k.val; omega
    | ⟨1, _⟩ => show win0_1.index t (1 : Fin 2) * 512 + 1 * (y 1).val = win0_4.index t (1 : Fin 2) * 512 + 1 * (y 1).val; omega
  · show V m c main_v5 (((cfg0.win 2).blk t).view.emb (ix2 k (y 1))) = V m c main_v5 (ix2 k ((((cfg0.win 4).blk t).view.emb y) 1))
    refine congrArg (V m c main_v5) (funext fun a => Fin.ext ?_)
    match a with
    | ⟨0, _⟩ => show win0_2.index t (0 : Fin 2) * 512 + 1 * k.val = k.val; omega
    | ⟨1, _⟩ => show win0_2.index t (1 : Fin 2) * 512 + 1 * (y 1).val = win0_4.index t (1 : Fin 2) * 512 + 1 * (y 1).val; omega
  · show V m c main_v1 (((cfg0.win 3).blk t).view.emb (ix2 (0 : Fin 1) (y 1))) = V m c main_v1 (ix2 (0 : Fin 1) ((((cfg0.win 4).blk t).view.emb y) 1))
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 512 + 1 * (y 1).val = win0_4.index t (1 : Fin 2) * 512 + 1 * (y 1).val; omega

/-- An index of the result array is in point t's block iff its row is among the point's 4096 rows. -/
theorem mem_blk (t : Fin cfg0.N) (i : S65536x512.Idx) :
    i ∈ ((cfg0.win 4).blk t).view.set ↔ ∀ a : Fin 2, win0_4.index t a * S4096x512.size a ≤ (i a).val ∧ (i a).val < win0_4.index t a * S4096x512.size a + S4096x512.size a := by
  show i ∈ ((View.whole main_v6).slice (win0_4.rect t)).set ↔ _
  rw [View.set_slice_whole, Rect.mem_set_unit]
  exact Iff.rfl

/-- Row r of the result is in the block of point r / 4096, and every point writes back. -/
theorem cover (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  have hN : cfg0.N = 16 := N_0
  let t : Fin cfg0.N := ⟨(i 0).val / 4096, by rw [hN]; omega⟩
  obtain ⟨-, -, -, -, -, -, -, -, e40, e41⟩ := idx_facts t
  have e40' : win0_4.index t (0 : Fin 2) = (i 0).val / 4096 := e40
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 512 ≤ (i 1).val ∧ (i 1).val < win0_4.index t (1 : Fin 2) * 512 + 512; omega

/-- The result array after the run: the split arrangement of the four input arrays as launched. -/
theorem final (c : Dev nD) : (dats m 0 c).arrAt 4 cfg0.N
    = splitDense (V m c main_v0) (V m c main_v2) (V m c main_v5) (V m c main_v1) :=
  (dats m 0 c).arrAt_eq_of_cover 4 (splitDense (V m c main_v0) (V m c main_v2) (V m c main_v5) (V m c main_v1))
    (fun t _ => flushed_eq m c t) cover

end Cert.KernelIdeal.Blocks

end
-- ==== Proof.Staged.lean ====
import proofs.«154150_j71356586656491_2_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

/- What the kernel's four input arrays hold when it is launched, as functions of the three arguments X, W, b. Before the
   launch the program flattens X to [65536, 512], views b as one row [1, 512], narrows W to bf16 (the high part), and
   narrows W minus the widened high part to bf16 (the low part). On the extended reals narrowing and widening are the
   identity, so the high part is W itself and the low part is W − W entry by entry. -/

noncomputable section

namespace Cert.KernelIdeal.Staged

open Idealize.ShloMosaic Idealize.ShloMosaic.TcCoe Idealize.SL.Sem Idealize.ShloMosaic.ValueIdx Cert.KernelIdeal Cert.KernelIdeal.Gen
open Idealize.ShloMosaic.StableHlo

variable (m : (ℓ : Loc nD τ sig) → Buf (Elt Ideal) ℓ)

/-- The three argument arrays of one core, as functions into the extended reals. -/
abbrev argX (c : Dev nD) : S8x64x128x512.Idx → EReal := m ((c : Thread nD τ).loc main_arg0)
abbrev argW (c : Dev nD) : S512x512.Idx → EReal := m ((c : Thread nD τ).loc main_arg1)
abbrev argB (c : Dev nD) : S512.Idx → EReal := m ((c : Thread nD τ).loc main_arg2)

/-- The rows array is X flattened in row-major order. -/
theorem staged_x (c : Dev nD) : V m c main_v0 = shapeCast S65536x512 (m ((c : Thread nD τ).loc main_arg0)) shapeCasts_S8x64x128x512_S65536x512 := by
  show StableHlo.after hostOps0 (fun b => m (c, b)) (Proc.devRef .tc main_v0) = _
  after_results
  rfl

/-- The high weight part is W: narrowing to bf16 is the identity on the extended reals. -/
theorem staged_whi (c : Dev nD) : (V m c main_v2 : S512x512.Idx → EReal) = (m ((c : Thread nD τ).loc main_arg1) : S512x512.Idx → EReal) := by
  show StableHlo.after hostOps0 (fun b => m (c, b)) (Proc.devRef .tc main_v2) = _
  after_results
  rfl

/-- The low weight part is W − W entry by entry: W minus its narrowed-and-widened copy, narrowed. -/
theorem staged_wlo (c : Dev nD) : (V m c main_v5 : S512x512.Idx → EReal) = fun i => argW m c i - argW m c i := by
  show StableHlo.after hostOps0 (fun b => m (c, b)) (Proc.devRef .tc main_v5) = _
  after_results
  rfl

/-- The bias row is b viewed as a [1, 512] array. -/
theorem staged_b (c : Dev nD) : V m c main_v1 = shapeCast S1x512 (m ((c : Thread nD τ).loc main_arg2)) shapeCasts_S512_S1x512 := by
  show StableHlo.after hostOps0 (fun b => m (c, b)) (Proc.devRef .tc main_v1) = _
  after_results
  rfl

end Cert.KernelIdeal.Staged

end
-- ==== Proof.Flatten.lean ====
import Idealize.ShloMosaic.Lib.Pipeline.Value
import Idealize.ShloMosaic.Lib.ValueIdx

/- Flattening the three leading axes [8, 64, 128] into 65536 rows, and back, read at an index: row-major order sends
   (a, b, c) to (a·64 + b)·128 + c. -/

namespace Cert.Flatten

open Idealize.ShloMosaic Idealize.ShloMosaic.ValueIdx

variable {α : Type}

/-- Row-major order makes position (a, b, c) of the three leading axes [8, 64, 128] row (a·64 + b)·128 + c of the
    flattened [65536, 512] array: flattening reads, at that row and column d, the operand at (a, b, c, d). -/
theorem flatten_apply (x : (⟨4, ![8, 64, 128, 512]⟩ : Shape).Idx → α)
    (h : (⟨4, ![8, 64, 128, 512]⟩ : Shape).ShapeCasts ⟨2, ![65536, 512]⟩)
    (a : Fin 8) (b : Fin 64) (c : Fin 128) (d : Fin 512) (r : Fin 65536) (hr : r.val = (a.val * 64 + b.val) * 128 + c.val) :
    shapeCast ⟨2, ![65536, 512]⟩ x h (ix2 r d) = x (ix4 a b c d) :=
  shapeCast_apply x h _ _ (by
    rw [Shape.rowMajor_val_four, Shape.rowMajor_val_two]
    show ((a.val * 64 + b.val) * 128 + c.val) * 512 + d.val = r.val * 512 + d.val
    rw [hr])

/-- The inverse reading: the [65536, 512] array restored to [8, 64, 128, 512] reads, at (a, b, c, d), the operand at row
    (a·64 + b)·128 + c and column d. -/
theorem unflatten_apply (x : (⟨2, ![65536, 512]⟩ : Shape).Idx → α)
    (h : (⟨2, ![65536, 512]⟩ : Shape).ShapeCasts ⟨4, ![8, 64, 128, 512]⟩)
    (a : Fin 8) (b : Fin 64) (c : Fin 128) (d : Fin 512) (r : Fin 65536) (hr : r.val = (a.val * 64 + b.val) * 128 + c.val) :
    shapeCast ⟨4, ![8, 64, 128, 512]⟩ x h (ix4 a b c d) = x (ix2 r d) :=
  shapeCast_apply x h _ _ (by
    rw [Shape.rowMajor_val_four, Shape.rowMajor_val_two]
    show r.val * 512 + d.val = ((a.val * 64 + b.val) * 128 + c.val) * 512 + d.val
    rw [hr])

end Cert.Flatten
-- ==== Proof.Whole.lean ====
import proofs.«154150_j71356586656491_2_alg».proof.Proof.Gen.KernelIdeal.Frame
import proofs.«154150_j71356586656491_2_alg».proof.Proof.Blocks
import proofs.«154150_j71356586656491_2_alg».proof.Proof.Staged
import proofs.«154150_j71356586656491_2_alg».proof.Proof.Dense
import proofs.«154150_j71356586656491_2_alg».proof.Proof.Flatten
import Idealize.ShloMosaic.Lib.ValueIdx
import Idealize.ShloMosaic.Lib.ValueLayout
import Idealize.ShloMosaic.Lib.Pipeline.Value
import Idealize.ShloMosaic.Lib.StableHlo.Run

/- The kernel's result on the extended reals, as a function of its arguments. After the launch the program restores the [65536, 512]
   result to [8, 64, 128, 512]; position (a, b, e, d) reads row (a·64 + b)·128 + e, column d. That row of the flattened
   rows array is X (a, b, e, ·), the bias row at column d is b (d), the high weight part is W and the low part W − W; with X
   and W real the two correction sums vanish, and what is left is the dense layer at (a, b, e, d). -/
set_option maxRecDepth 16384

noncomputable section

namespace Cert.KernelIdeal.Whole

open Idealize.ShloMosaic Idealize.ShloMosaic.TcCoe Idealize.SL.Sem Idealize.ShloMosaic.ValueIdx Cert.KernelIdeal Cert.KernelIdeal.Gen
open Idealize.ShloMosaic.StableHlo
open Cert.Dense (dense splitDense)
open Cert.KernelIdeal.Staged (argX argW argB)

variable (m : (ℓ : Loc nD τ sig) → Buf (Elt Ideal) ℓ) (ρ : Dev nD → PrngReg)

/-- The program's result buffer after the run: the reshape after the launch applied to the launch's result array, which
    is the split arrangement of the four input arrays. -/
theorem tail_eq (c : Dev nD) :
    Pipeline.afterTail₀ cfgs (dats m) 0 (V0 m) [hostOps1] c main_v7
      = shapeCast S8x64x128x512 (splitDense (V m c main_v0) (V m c main_v2) (V m c main_v5) (V m c main_v1)) shapeCasts_S65536x512_S8x64x128x512 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = splitDense (V m c main_v0) (V m c main_v2) (V m c main_v5) (V m c main_v1) :=
    (Pipeline.withArrays_arr spec0 launch0.win.arr_inj c _ _ 4).trans (Blocks.final m c)
  rw [e]
  rfl

/-- With real X and W the restored array is the dense layer of the arguments, index by index. -/
theorem restored_eq (c : Dev nD) (hX : ∀ i, ∃ r : ℝ, argX m c i = (r : EReal)) (hW : ∀ i, ∃ r : ℝ, argW m c i = (r : EReal)) :
    shapeCast S8x64x128x512 (splitDense (V m c main_v0) (V m c main_v2) (V m c main_v5) (V m c main_v1)) shapeCasts_S65536x512_S8x64x128x512
      = dense (argX m c) (argW m c) (argB m c) := by
  funext i
  obtain ⟨a, b, e, d, rfl⟩ : ∃ (a : Fin 8) (b : Fin 64) (e : Fin 128) (d : Fin 512), i = ix4 a b e d := ⟨i 0, i 1, i 2, i 3, eq_ix4 i⟩
  have hr : (a.val * 64 + b.val) * 128 + e.val < 65536 := by have := a.isLt; have := b.isLt; have := e.isLt; omega
  rw [Cert.Flatten.unflatten_apply _ _ a b e d ⟨(a.val * 64 + b.val) * 128 + e.val, hr⟩ rfl]
  rw [Staged.staged_x, Staged.staged_whi, Staged.staged_wlo, Staged.staged_b]
  rw [Cert.Dense.splitDense_of_real _ _ _ (fun j => by unfold shapeCast; exact hX _) hW]
  unfold dense
  show Ideal.tanh ((∑ k : Fin 512, shapeCast S65536x512 (argX m c) shapeCasts_S8x64x128x512_S65536x512
          (ix2 (⟨(a.val * 64 + b.val) * 128 + e.val, hr⟩ : Fin 65536) k) * argW m c (ix2 k d))
        + shapeCast S1x512 (argB m c) shapeCasts_S512_S1x512 (ix2 (0 : Fin 1) d))
      = Ideal.tanh ((∑ k : Fin 512, argX m c (ix4 a b e k) * argW m c (ix2 k d)) + argB m c (ix1 d))
  refine congrArg Ideal.tanh (congrArg₂ (· + ·) (Finset.sum_congr rfl fun k _ => congrArg (· * _) ?_) ?_)
  · exact Cert.Flatten.flatten_apply _ _ a b e k ⟨_, hr⟩ rfl
  · exact shapeCast_a_1a_apply _ _ 0 d

/-- The kernel's run on the extended reals, read: under the precondition the result array ends at the dense layer of the arguments,
    the arguments unchanged. -/
theorem run (hX : ∀ c i, ∃ r : ℝ, argX m c i = (r : EReal)) (hW : ∀ c i, ∃ r : ℝ, argW m c i = (r : EReal)) :
    θ_run defs (onTc (τ := τ) (main (F := Ideal))) ⟨m, fun _ => 0, ρ⟩ fun r => ∀ c : Dev nD,
      r.2.mem ((c : Thread nD τ).loc main_v7) = dense (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(((h c).2 main_v7 (Pipeline.mem_restRefs_of main_v7 (by decide) (by decide))).trans (tail_eq m c)).trans (restored_eq m c (hX c) (hW c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.Reference.lean ====
import proofs.«154150_j71356586656491_2_alg».proof.Proof.Gen.ReferenceIdeal.Read
import proofs.«154150_j71356586656491_2_alg».proof.Proof.Dense
import Idealize.ShloMosaic.Lib.ValueIdx

/- The reference reads as the dense layer. Its five operations are a contraction of X's last axis with W's first, two
   broadcasts taking b to [1, 1, 1, 512] and then to [8, 64, 128, 512], an addition and a tanh. At index i the contraction is
   Σₖ X (i₀, i₁, i₂, k) · W (k, i₃), the broadcasts read b (i₃), and the host's tanh is the same function of an extended real
   as the kernel's. -/

noncomputable section

namespace Cert.ReferenceIdeal.AsDense

open Idealize.ShloMosaic Idealize.ShloMosaic.ValueIdx Cert.ReferenceIdeal Cert.ReferenceIdeal.Read
open Cert.Dense (dense)

/-- The reference's last stage is `dense`: the operand indices of the contraction and of the two broadcasts are the
    coordinates named in `dense`, coordinate by coordinate. -/
theorem ref_eq (x0 : S8x64x128x512.Idx → EReal) (x1 : S512x512.Idx → EReal) (x2 : S512.Idx → EReal) :
    val_main_v4 (F := Ideal) x0 x1 x2 = dense x0 x1 x2 := by
  funext i
  have el : ∀ k : Fin 512, lidx_main_v0 i k = ix4 (i 0) (i 1) (i 2) k := fun k => funext fun a => Fin.ext (by
    match a with
    | ⟨0, _⟩ => rfl
    | ⟨1, _⟩ => rfl
    | ⟨2, _⟩ => rfl
    | ⟨3, _⟩ => rfl)
  have er : ∀ k : Fin 512, ridx_main_v0 i k = ix2 k (i 3) := fun k => funext fun a => Fin.ext (by
    match a with
    | ⟨0, _⟩ => rfl
    | ⟨1, _⟩ => rfl)
  have eb : idx_main_v1 (idx_main_v2 i) = ix1 (i 3) := funext fun a => Fin.ext (by
    match a with
    | ⟨0, _⟩ => rfl)
  rw [val_main_v4_apply, val_main_v3_apply, val_main_v0_apply, val_main_v2_apply, val_main_v1_apply]
  simp only [el, er, eb, Ideal.addf_def, Ideal.hostUnary_tanh_def]
  rfl

end Cert.ReferenceIdeal.AsDense

end
-- ==== Proof.lean ====
/- The certificate's claims, assembled. A dense layer with bias and tanh, out = tanh (X · W + b) over the last axis of
   X : [8, 64, 128, 512], is computed by the kernel on the rows flattened to [65536, 512], sixteen blocks of 4096 rows,
   with the product split three ways (X·W + (X − X)·W + X·(W − W) once the changes of float format are the identity); the
   reference is one contraction. On finite inputs the two correction terms are sums of zeros, so both programs end at one
   function of the arguments, index by index. -/
import proofs.«154150_j71356586656491_2_alg».proof.Defs
import proofs.«154150_j71356586656491_2_alg».proof.Proof.Gen.Kernel
import proofs.«154150_j71356586656491_2_alg».proof.Proof.Gen.Kernel.Skeleton
import proofs.«154150_j71356586656491_2_alg».proof.Proof.Gen.Kernel.Launch
import proofs.«154150_j71356586656491_2_alg».proof.Proof.Gen.Kernel.Points
import proofs.«154150_j71356586656491_2_alg».proof.Proof.Gen.Kernel.Frame
import proofs.«154150_j71356586656491_2_alg».proof.Proof.Gen.KernelIdeal
import proofs.«154150_j71356586656491_2_alg».proof.Proof.Gen.KernelIdeal.Skeleton
import proofs.«154150_j71356586656491_2_alg».proof.Proof.Gen.KernelIdeal.Launch
import proofs.«154150_j71356586656491_2_alg».proof.Proof.Gen.KernelIdeal.Points
import proofs.«154150_j71356586656491_2_alg».proof.Proof.Gen.KernelIdeal.Frame
import proofs.«154150_j71356586656491_2_alg».proof.Proof.Gen.ReferenceIdeal
import proofs.«154150_j71356586656491_2_alg».proof.Proof.Gen.ReferenceIdeal.Run
import proofs.«154150_j71356586656491_2_alg».proof.Proof.Gen.ReferenceIdeal.Read
import proofs.«154150_j71356586656491_2_alg».proof.Proof.Gen.Pre_finite_inputs
import proofs.«154150_j71356586656491_2_alg».proof.Proof.Finite
import proofs.«154150_j71356586656491_2_alg».proof.Proof.Dense
import proofs.«154150_j71356586656491_2_alg».proof.Proof.Whole
import proofs.«154150_j71356586656491_2_alg».proof.Proof.Reference
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: narrowing X's block to bf16 and widening it back is the identity on the
    extended reals, and the rounding through bf16 on words. -/
theorem preserves : Cert.preserves_Kernel_KernelIdeal :=
  IdealRules.truncf_extf.statement Cert.KernelIdeal.S4096x512 .f32 .bf16

/-- Read on the extended reals, both programs end at the dense layer of the arguments: the kernel because, X and W being finite, the two
    correction products vanish; the reference by reading its contraction, broadcasts, sum and tanh at an index. -/
theorem algebraic : Cert.algebraic_KernelIdeal_ReferenceIdeal := by
  intro m ρ m' ρ' hpre hagree
  have hreal := fun c => Cert.FiniteInputs.reals_of_pre _ _ _ (hpre c)
  refine ⟨fun c => Cert.Dense.dense (Cert.KernelIdeal.Staged.argX m c) (Cert.KernelIdeal.Staged.argW m c) (Cert.KernelIdeal.Staged.argB m c),
    Cert.KernelIdeal.Whole.run m ρ (fun c => (hreal c).1) (fun c => (hreal c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.AsDense.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
